-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384x128 : Shape := ⟨2, ![16384, 128]⟩
abbrev S1000x128 : Shape := ⟨2, ![1000, 128]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S16384x1000 .f32) (main_arg1 : FVec F S16384x128 .f32) (main_arg2 : FVec F S1000x128 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S1000x128 .f32 := Host.absf main_arg2
  let main_cst_2 : FVec F S_ .f32 := constant S_ .f32 0x7F800000#32
  let main_v10 : FVec F S1000x128 .f32 := broadcastInDim S1000x128 ![] bcast_S_S1000x128 main_cst_2
  let main_v11 : IVec S1000x128 1 := cmpf .olt main_v9 main_v10
  let main_c_3 : IVec S_ 1 := constantI S_ 1 1#1
  let main_v12 : IVec S_ 1 := (fun x v => Host.reduce IntOp.andi x v reducesTo_S1000x128_S_d0_1 h_S_) main_v11 main_c_3
  let main_v13 : IVec S_ 1 := andi main_v8 main_v12
  main_v13
-- ==== Kernel.lean ====
abbrev S16384x1000 : Shape := ⟨2, ![16384, 1000]⟩
abbrev S16384x128 : Shape := ⟨2, ![16384, 128]⟩
abbrev S1000x128 : Shape := ⟨2, ![1000, 128]⟩
abbrev S128x128 : Shape := ⟨2, ![128, 128]⟩
abbrev S4096x1000 : Shape := ⟨2, ![4096, 1000]⟩
abbrev S4096x128 : Shape := ⟨2, ![4096, 128]⟩
abbrev S32x128 : Shape := ⟨2, ![32, 128]⟩
abbrev S32x128x128 : Shape := ⟨3, ![32, 128, 128]⟩
abbrev S16384x1 : Shape := ⟨2, ![16384, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384x128, .f32⟩
  | .hbm, ⟨2, _⟩ => ⟨S1000x128, .f32⟩
  | .hbm, ⟨3, _⟩ => ⟨S128x128, .f32⟩
  | .hbm, ⟨4, _⟩ => ⟨S16384x1, .f32⟩
  | .local _ .vmem, ⟨0, _⟩ => ⟨S4096x1000, .f32⟩
  | .local _ .vmem, ⟨1, _⟩ => ⟨S4096x1000, .f32⟩
  | .local _ .vmem, ⟨2, _⟩ => ⟨S4096x128, .f32⟩
  | .local _ .vmem, ⟨3, _⟩ => ⟨S4096x128, .f32⟩
  | .local _ .vmem, ⟨4, _⟩ => ⟨S1000x128, .f32⟩
  | .local _ .vmem, ⟨5, _⟩ => ⟨S32x128, .f32⟩
  | .local _ .vmem, ⟨6, _⟩ => ⟨S32x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x1000_S4096x1000_0_0 : ∀ a, (![0, 0] : Fin 2 → Nat) a + S4096x1000.size a ≤ S4096x1000.size a
  h_S4096x1000 : 0 < S4096x1000.numel
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S4096x128_S4096x128_0_0 : ∀ a, (![0, 0] : Fin 2 → Nat) a + S4096x128.size a ≤ S4096x128.size a
  h_S4096x128 : 0 < S4096x128.numel
  shapeCasts_S4096x128_S32x128x128 : S4096x128.ShapeCasts S32x128x128
  reduces_S32x128x128_S32x128 : S32x128x128.Reduces [2] S32x128
  inb_S32x128_S32x128_0_0 : ∀ a, (![0, 0] : Fin 2 → Nat) a + S32x128.size a ≤ S32x128.size a
  h_S32x128 : 0 < S32x128.numel
  shapeCasts_S128x128_S16384x1 : S128x128.ShapeCasts S16384x1
  dot_S4096x1000_S1000x128_S4096x128_1_0_0_1_n_n_wf : DotDims.WF S4096x1000 S1000x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1000.size a ≤ S16384x1000.size a
  hwx0_0 : ∀ i : grid0.Coords, EltTy.bits .f32 = 32 ∨ (Rect.block (s := S16384x1000) S4096x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S1000x128.size a
  hwx0_2 : ∀ i : grid0.Coords, EltTy.bits .f32 = 32 ∨ (Rect.block (s := S1000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S128x128.size a
  hwx0_3 : ∀ i : grid0.Coords, EltTy.bits .f32 = 32 ∨ (Rect.block (s := S128x128) S32x128.size (cc0_transform_3 i) (hinb0_3 i)).WholeWords (EltTy.packing .f32)

variable [Facts₀]

def dot_S4096x1000_S1000x128_S4096x128_1_0_0_1_n_n : DotDims S4096x1000 S1000x128 S4096x128 where
  lhsContracting := [1]
  rhsContracting := [0]
  lhsNonContracting := [0]
  rhsNonContracting := [1]
  lhsBatch := []
  rhsBatch := []
  wf := dot_S4096x1000_S1000x128_S4096x128_1_0_0_1_n_n_wf

abbrev win0_0 : Pipeline.Window sig grid0 :=
  Pipeline.Window.ofSpec (Memref.whole main_arg0) S4096x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S16384x128 : Shape := ⟨2, ![16384, 128]⟩
abbrev S1000x128 : Shape := ⟨2, ![1000, 128]⟩
abbrev S_ : Shape := ⟨0, ![]⟩
abbrev S16384 : Shape := ⟨1, ![16384]⟩
abbrev S16384x1 : Shape := ⟨2, ![16384, 1]⟩

abbrev nBuf : Space → Nat
  | .hbm => 8
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x128, .f32⟩
  | .hbm, ⟨2, _⟩ => ⟨S1000x128, .f32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S16384x1, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.KernelEntry.lean ====
/-
  What the kernel body stores, read at one entry.

  At a grid point the body holds a `[4096, 1000]` block of `state`, the whole of `values` and a `[4096, 128]` block of
  `action`. It forms the product of the first two (narrowing them to bf16 first, which at the ideal values changes
  nothing), multiplies it entrywise by the action block, regroups the 4096 rows as 32 groups of 128 rows, and sums each
  regrouped row over its 128 entries. So entry `(a, b)` of the `[32, 128]` result is, for the block's row
  `ρ = 128·a + b`,  Σ_k action[ρ, k] · Σ_s state[ρ, s] · values[s, k].
-/
import proofs.«175064_g61091614818686_cont_9to1c4b_579_12_alg».proof.Proof.Gen.KernelIdeal.Skeleton
import proofs.«175064_g61091614818686_cont_9to1c4b_579_12_alg».proof.Proof.LibMatmulEntry
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Cert.KernelIdeal.Facts₀
open Idealize.ShloMosaic Idealize.ShloMosaic.ValueIdx

/-- The stored block at `(a, b)` is the row value of the block's row `ρ = 128·a + b`. -/
theorem pay_entry (x0 : FVec Ideal S4096x1000 .f32) (x2 : FVec Ideal S1000x128 .f32) (x1 : FVec Ideal S4096x128 .f32)
    (a : Fin 32) (b : Fin 128) (ρ : Fin 4096) (hρ : ρ.val = 128 * a.val + b.val) :
    k0_pay1 (F := Ideal) x0 x2 x1 (ix2 a b)
      = ∑ k : Fin 128, x1 (ix2 ρ k) * ∑ s : Fin 1000, x0 (ix2 ρ s) * x2 (ix2 s k) := by
  unfold k0_pay1
  refine (Ideal.multiReduction_add_single _ 0x00000000#32 Facts₀.reduces_S32x128x128_S32x128 (.inl rfl) rfl (ix2 a b)).trans ?_
  refine Finset.sum_congr rfl fun k _ => ?_
  refine (shapeCast_apply _ Facts₀.shapeCasts_S4096x128_S32x128x128 _ (ix2 ρ k) ?_).trans ?_
  · rw [Shape.rowMajor_val_two, Shape.rowMajor_val_three]
    show ρ.val * 128 + k.val = (a.val * 128 + b.val) * 128 + k.val
    omega
  · show x1 (ix2 ρ k) * _ = _
    refine congrArg (x1 (ix2 ρ k) * ·) ?_
    exact Ideal.matmul_rows_cols dot_S4096x1000_S1000x128_S4096x128_1_0_0_1_n_n rfl rfl rfl rfl rfl rfl none _ _ ρ k

end Cert.KernelIdeal.Entry

end
-- ==== Proof.Spec.lean ====
/-
  The function both programs compute, over the extended reals.

  For a batch row `r` the value is the action-weighted row of the product `state · values`:

      rowValue r = Σ_k action[r, k] · (Σ_s state[r, s] · values[s, k]),   k < 128, s < 1000.

  The reference returns it as a column, entry `(r, 0)` of a `[16384, 1]` array (`column`). The kernel writes it into a
  `[128, 128]` array, row `r` at position `(r / 128, r % 128)`, that is entry `(a, b)` holds row `128·a + b` (`tiles`),
  and a reshape of that array to `[16384, 1]` is the column again, the two arrays having the same row-major order.
  Nothing here needs finiteness: both sides are the same sums of the same products in the same order.
-/
import Idealize.ShloMosaic.PureOps.Ideal
import Idealize.ShloMosaic.Lib.ValueIdx

noncomputable section

open scoped BigOperators

namespace Cert.ActionValue

open Idealize.ShloMosaic Idealize.ShloMosaic.ValueIdx

/-- Row `r`: the sum over the 128 actions of the action's weight times that action's entry of `state[r, ·] · values`. -/
def rowValue (st : FVec Ideal ⟨2, ![16384, 1000]⟩ .f32) (ac : FVec Ideal ⟨2, ![16384, 128]⟩ .f32)
    (va : FVec Ideal ⟨2, ![1000, 128]⟩ .f32) (r : Fin 16384) : EReal :=
  ∑ k : Fin 128, ac (ix2 r k) * ∑ s : Fin 1000, st (ix2 r s) * va (ix2 s k)

/-- The result as a column: entry `(r, 0)` is row `r`'s value. -/
def column (st : FVec Ideal ⟨2, ![16384, 1000]⟩ .f32) (ac : FVec Ideal ⟨2, ![16384, 128]⟩ .f32)
    (va : FVec Ideal ⟨2, ![1000, 128]⟩ .f32) : FVec Ideal ⟨2, ![16384, 1]⟩ .f32 :=
  fun i => rowValue st ac va (i 0)

/-- The row that entry `(a, b)` of the `[128, 128]` arrangement holds. -/
def tileRow (a b : Fin 128) : Fin 16384 := ⟨128 * a.val + b.val, by have := a.isLt; have := b.isLt; omega⟩

/-- The result as 128 rows of 128 values: entry `(a, b)` is row `128·a + b`'s value. -/
def tiles (st : FVec Ideal ⟨2, ![16384, 1000]⟩ .f32) (ac : FVec Ideal ⟨2, ![16384, 128]⟩ .f32)
    (va : FVec Ideal ⟨2, ![1000, 128]⟩ .f32) : FVec Ideal ⟨2, ![128, 128]⟩ .f32 :=
  fun j => rowValue st ac va (tileRow (j 0) (j 1))

end Cert.ActionValue

end
-- ==== Proof.KernelArray.lean ====
/-
  The kernel's array after the four grid points, and the result after the final reshape.

  Grid point `t` (t < 4) reads rows `4096·t … 4096·t + 4095` of `state` and `action` and the whole of `values`, and writes
  rows `32·t … 32·t + 31` of the `[128, 128]` output. Entry `(a, b)` of the written block is the row value of the
  block's row `128·a + b`, which is row `4096·t + 128·a + b = 128·(32·t + a) + b` of the batch: exactly what `tiles`
  holds at `(32·t + a, b)`. The four blocks tile the output, so the output ends as `tiles`; and the reshape to
  `[16384, 1]` keeps the row-major position, `(r, 0) ↦ (r / 128, r % 128)`, so the program's result is `column`.
-/
import proofs.«175064_g61091614818686_cont_9to1c4b_579_12_alg».proof.Proof.Gen.KernelIdeal.Frame
import proofs.«175064_g61091614818686_cont_9to1c4b_579_12_alg».proof.Proof.KernelEntry
import proofs.«175064_g61091614818686_cont_9to1c4b_579_12_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.TileValue

open Cert.KernelIdeal Cert.KernelIdeal.Gen
open Idealize.ShloMosaic Idealize.ShloMosaic.TcCoe Idealize.ShloMosaic.ValueIdx Idealize.SL.Sem
open Cert.ActionValue

variable (m : (ℓ : Loc nD τ sig) → Buf (Elt Ideal) ℓ) (ρ : Dev nD → PrngReg)

theorem hz : (![0, 0] : Fin 2 → Nat) = fun _ => 0 := funext fun a => by fin_cases a <;> rfl

/-- One block is the matching block of `tiles`: if the loaded blocks are rows `4096·q + ·` of `state` and `action` and all of
    `values`, the stored `[32, 128]` block at `j` is `tiles` at `(32·q + j₀, j₁)`. -/
theorem block_value (st : FVec Ideal S16384x1000 .f32) (ac : FVec Ideal S16384x128 .f32) (va : FVec Ideal S1000x128 .f32)
    (x0 : FVec Ideal S4096x1000 .f32) (x1 : FVec Ideal S4096x128 .f32) (x2 : FVec Ideal S1000x128 .f32)
    (q : Nat) (hq : q < 4)
    (h0 : ∀ (r : Fin 4096) (s : Fin 1000), x0 (ix2 r s) = st (ix2 ⟨4096 * q + r.val, by have := r.isLt; omega⟩ s))
    (h1 : ∀ (r : Fin 4096) (k : Fin 128), x1 (ix2 r k) = ac (ix2 ⟨4096 * q + r.val, by have := r.isLt; omega⟩ k))
    (h2 : ∀ (s : Fin 1000) (k : Fin 128), x2 (ix2 s k) = va (ix2 s k))
    (j : S32x128.Idx) (i : S128x128.Idx) (hi0 : (i 0).val = 32 * q + (j 0).val) (hi1 : (i 1).val = (j 1).val) :
    k0_pay1 (F := Ideal) x0 x2 x1 j = tiles st ac va i := by
  obtain ⟨a, b, rfl⟩ : ∃ (a : Fin 32) (b : Fin 128), j = ix2 a b := ⟨j 0, j 1, eq_ix2 j⟩
  have ha : a.val < 32 := a.isLt
  have hb : b.val < 128 := b.isLt
  rw [Entry.pay_entry x0 x2 x1 a b ⟨128 * a.val + b.val, by omega⟩ rfl]
  unfold tiles rowValue
  have hrow : tileRow (i 0) (i 1) = ⟨4096 * q + (128 * a.val + b.val), by omega⟩ := by
    apply Fin.ext
    show 128 * (i 0).val + (i 1).val = 4096 * q + (128 * a.val + b.val)
    have e0 : (i 0).val = 32 * q + a.val := hi0
    have e1 : (i 1).val = b.val := hi1
    omega
  rw [hrow]
  refine Finset.sum_congr rfl fun k _ => ?_
  rw [h1]
  refine congrArg (ac _ * ·) (Finset.sum_congr rfl fun s _ => ?_)
  rw [h0, h2]

/-- The printed index maps over the four grid points: the `state` and `action` blocks move with the output block, the
    `values` block stays, and every column index is zero. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) < 4 :=
  (by decide +kernel : ∀ t : Fin grid0.N, _)

/-- Every one of the four row blocks of the output is some grid point's. -/
theorem idx_onto : ∀ q : Fin 4, ∃ t : Fin cfg0.N, win0_3.index t = ![q.val, 0] :=
  (by decide +kernel : ∀ q : Fin 4, ∃ t : Fin grid0.N, win0_3.index t = ![q.val, 0])

/-- What grid point `t` writes back is block `t` of `tiles` of the argument arrays. -/
theorem flushed_eq (c : Dev nD) (t : Fin cfg0.N) :
    (dats m 0 c).flushed 3 t
      = ((cfg0.win 3).blk t).view.read (Elt Ideal) (tiles (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S4096x1000) hz, View.ld_unit_zero (S := S1000x128) hz, View.ld_unit_zero (S := S4096x128) hz]
  obtain ⟨e00, e01, e10, e11, e20, e21, e31, e30⟩ := idx_facts t
  have h0 : ∀ (r : Fin 4096) (s : Fin 1000), iblk m c 0 t (ix2 r s)
      = V m c main_arg0 (ix2 ⟨4096 * win0_3.index t (0 : Fin 2) + r.val, by have := r.isLt; omega⟩ s) := by
    intro r s
    show V m c main_arg0 (((cfg0.win 0).blk t).view.emb (ix2 r s)) = _
    refine congrArg (V m c main_arg0) (funext fun a => Fin.ext ?_)
    match a with
    | ⟨0, _⟩ => show win0_0.index t (0 : Fin 2) * 4096 + 1 * r.val = 4096 * win0_3.index t (0 : Fin 2) + r.val; omega
    | ⟨1, _⟩ => show win0_0.index t (1 : Fin 2) * 1000 + 1 * s.val = s.val; omega
  have h1 : ∀ (r : Fin 4096) (k : Fin 128), iblk m c 1 t (ix2 r k)
      = V m c main_arg1 (ix2 ⟨4096 * win0_3.index t (0 : Fin 2) + r.val, by have := r.isLt; omega⟩ k) := by
    intro r k
    show V m c main_arg1 (((cfg0.win 1).blk t).view.emb (ix2 r k)) = _
    refine congrArg (V m c main_arg1) (funext fun a => Fin.ext ?_)
    match a with
    | ⟨0, _⟩ => show win0_1.index t (0 : Fin 2) * 4096 + 1 * r.val = 4096 * win0_3.index t (0 : Fin 2) + r.val; omega
    | ⟨1, _⟩ => show win0_1.index t (1 : Fin 2) * 128 + 1 * k.val = k.val; omega
  have h2 : ∀ (s : Fin 1000) (k : Fin 128), iblk m c 2 t (ix2 s k) = V m c main_arg2 (ix2 s k) := by
    intro s k
    show V m c main_arg2 (((cfg0.win 2).blk t).view.emb (ix2 s k)) = _
    refine congrArg (V m c main_arg2) (funext fun a => Fin.ext ?_)
    match a with
    | ⟨0, _⟩ => show win0_2.index t (0 : Fin 2) * 1000 + 1 * s.val = s.val; omega
    | ⟨1, _⟩ => show win0_2.index t (1 : Fin 2) * 128 + 1 * k.val = k.val; omega
  funext j
  refine block_value (V m c main_arg0) (V m c main_arg1) (V m c main_arg2) (iblk m c 0 t) (iblk m c 1 t) (iblk m c 2 t)
    (win0_3.index t (0 : Fin 2)) e30 h0 h1 h2 j (((cfg0.win 3).blk t).view.emb j) ?_ ?_
  · show win0_3.index t (0 : Fin 2) * 32 + 1 * (j 0).val = 32 * win0_3.index t (0 : Fin 2) + (j 0).val; omega
  · show win0_3.index t (1 : Fin 2) * 128 + 1 * (j 1).val = (j 1).val; omega

/-- An entry of the output is in grid point `t`'s block iff each coordinate is in the block's range on its axis. -/
theorem mem_blk (t : Fin cfg0.N) (i : S128x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v0).slice (win0_3.rect t)).set ↔ _
  rw [View.set_slice_whole, Rect.mem_set_unit]
  exact Iff.rfl

/-- The four blocks cover the output: row `i₀` is in the block of the point whose block index is `i₀ / 32`. -/
theorem cover (i : S128x128.Idx) : ∃ t : Fin cfg0.N, (cfg0.win 3).flush t = true ∧ i ∈ ((cfg0.win 3).blk t).view.set := by
  have hi0 : (i 0).val < 128 := (i 0).isLt
  have hi1 : (i 1).val < 128 := (i 1).isLt
  obtain ⟨t, ht⟩ := idx_onto ⟨(i 0).val / 32, by omega⟩
  have q0 : win0_3.index t (0 : Fin 2) = (i 0).val / 32 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 128 ≤ (i 1).val ∧ (i 1).val < win0_3.index t (1 : Fin 2) * 128 + 128; omega

/-- The output array after the run is `tiles` of the argument arrays. -/
theorem final (c : Dev nD) :
    (dats m 0 c).arrAt 3 cfg0.N = tiles (V m c main_arg0) (V m c main_arg1) (V m c main_arg2) :=
  (dats m 0 c).arrAt_eq_of_cover 3 _ (fun t _ => flushed_eq m c t) cover

/-- The reshape of `tiles` to one column is `column`: entry `(r, 0)` has the row-major position `r`, which in the
    `[128, 128]` arrangement is `(r / 128, r % 128)`, the place of row `r`. -/
theorem reshape_tiles (st : FVec Ideal S16384x1000 .f32) (ac : FVec Ideal S16384x128 .f32) (va : FVec Ideal S1000x128 .f32)
    (h : S128x128.ShapeCasts S16384x1) :
    shapeCast S16384x1 (tiles st ac va) h = column st ac va := by
  funext i
  obtain ⟨r, z, rfl⟩ : ∃ (r : Fin 16384) (z : Fin 1), i = ix2 r z := ⟨i 0, i 1, eq_ix2 i⟩
  have hr : r.val < 16384 := r.isLt
  have hz0 : z.val = 0 := by have := z.isLt; omega
  refine (shapeCast_apply _ h _ (ix2 (⟨r.val / 128, by omega⟩ : Fin 128) (⟨r.val % 128, Nat.mod_lt _ (by decide)⟩ : Fin 128)) ?_).trans ?_
  · rw [Shape.rowMajor_val_two, Shape.rowMajor_val_two]
    show r.val / 128 * 128 + r.val % 128 = r.val * 1 + z.val
    omega
  · unfold tiles column
    refine congrArg (rowValue st ac va) (Fin.ext ?_)
    show 128 * (r.val / 128) + r.val % 128 = r.val
    omega

end Cert.KernelIdeal.TileValue

end
-- ==== Proof.KernelRun.lean ====
/-
  The kernel program's run, with its result named.

  The generated frame run leaves the `[128, 128]` output array at what the four grid points wrote, which is `tiles` of
  the argument arrays, and the result buffer at the final reshape of that array, which is `column`; the argument arrays
  are inputs of the region and end as they began.
-/
import proofs.«175064_g61091614818686_cont_9to1c4b_579_12_alg».proof.Proof.KernelArray

set_option maxRecDepth 16384

noncomputable section

namespace Cert.KernelIdeal.TileValue

open Cert.KernelIdeal Cert.KernelIdeal.Gen
open Idealize.ShloMosaic Idealize.ShloMosaic.TcCoe Idealize.ShloMosaic.ValueIdx Idealize.SL.Sem
open Idealize.ShloMosaic.StableHlo
open Cert.ActionValue

variable (m : (ℓ : Loc nD τ sig) → Buf (Elt Ideal) ℓ) (ρ : Dev nD → PrngReg)

/-- The result buffer after the reshape that follows the region is `column` of the argument arrays. -/
theorem tail_eq (c : Dev nD) :
    Pipeline.afterTail₀ cfgs (dats m) 0 (V0 m) [hostOps1] c main_v1
      = column (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 3).trans
    (final m c)
  exact (congrArg (fun X => shapeCast S16384x1 X Facts₀.shapeCasts_S128x128_S16384x1) e).trans (reshape_tiles _ _ _ _)

/-- Every weakly fair execution of the kernel program terminates with its result at `column` of the argument arrays
    and the argument arrays unchanged. -/
theorem run : θ_run defs (onTc (τ := τ) (main (F := Ideal))) ⟨m, fun _ => 0, ρ⟩ fun r => ∀ c : Dev nD,
      r.2.mem ((c.tc : Thread nD τ).loc main_v1)
        = column (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.TileValue

end
-- ==== Proof.RefValue.lean ====
/-
  The reference at the ideal values is the column of row values.

  Its five host operations are: the product `state · values` (entry `(r, k)` the sum over `s` of
  `state[r, s] · values[s, k]`), the entrywise product with `action`, the constant zero, the sum over the action axis
  started from that zero, and the re-labelling of the resulting vector as a one-column matrix. Read at entry `(r, 0)`
  this is `0 + Σ_k action[r, k] · Σ_s state[r, s] · values[s, k]`, and the leading zero is the extended real zero.
-/
import proofs.«175064_g61091614818686_cont_9to1c4b_579_12_alg».proof.Proof.Gen.ReferenceIdeal.Read
import proofs.«175064_g61091614818686_cont_9to1c4b_579_12_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The entry of `action ∗ (state · values)` that term `k` of row `r`'s sum reads is `(r, k)`. -/
theorem idx_sum (r : Fin 16384) (z : Fin 1) (k : Fin 128) : idx_main_v2 (idx_main_v3 (ix2 r z)) k = ix2 r k :=
  funext fun a => Fin.ext (by match a with | ⟨0, _⟩ => rfl | ⟨1, _⟩ => rfl)

/-- Term `s` of entry `(r, k)` of the product reads `state` at `(r, s)` … -/
theorem idx_left (r : Fin 16384) (k : Fin 128) (s : Fin 1000) : lidx_main_v0 (ix2 r k) s = ix2 r s :=
  funext fun a => Fin.ext (by match a with | ⟨0, _⟩ => rfl | ⟨1, _⟩ => rfl)

/-- … and `values` at `(s, k)`. -/
theorem idx_right (r : Fin 16384) (k : Fin 128) (s : Fin 1000) : ridx_main_v0 (ix2 r k) s = ix2 s k :=
  funext fun a => Fin.ext (by match a with | ⟨0, _⟩ => rfl | ⟨1, _⟩ => rfl)

/-- The reference's result is the column of row values. -/
theorem result_eq (x0 : FVec Ideal S16384x1000 .f32) (x1 : FVec Ideal S16384x128 .f32) (x2 : FVec Ideal S1000x128 .f32) :
    val_main_v3 (F := Ideal) x0 x1 x2 = Cert.ActionValue.column x0 x1 x2 := by
  funext i
  obtain ⟨r, z, rfl⟩ : ∃ (r : Fin 16384) (z : Fin 1), i = ix2 r z := ⟨i 0, i 1, eq_ix2 i⟩
  rw [val_main_v3_apply, val_main_v2_apply, val_main_cst_apply]
  show Ideal.ofBits .f32 0x00000000#32 + _ = _
  rw [Ideal.ofBits_zero_f32, zero_add]
  unfold Cert.ActionValue.column Cert.ActionValue.rowValue
  refine Finset.sum_congr rfl fun k _ => ?_
  rw [idx_sum, val_main_v1_apply, val_main_v0_apply]
  show x1 (ix2 r k) * _ = _
  refine congrArg (x1 (ix2 r k) * ·) (Finset.sum_congr rfl fun s _ => ?_)
  rw [idx_left, idx_right]

end Cert.ReferenceIdeal.RefValue

end
-- ==== Proof.lean ====
/-
  The kernel computes, for each of the 16384 batch rows `r`, the action-weighted row of `state · values`:

      out[r] = Σ_k action[r, k] · (Σ_s state[r, s] · values[s, k]).

  The kernel does it four row blocks of 4096 at a time: a matrix product of the `state` block with `values`, an entrywise
  product with the `action` block, a regrouping of the 4096 rows as 32 × 128 and a sum over the action axis, stored as a
  `[32, 128]` block of a `[128, 128]` array that a final reshape turns into the `[16384, 1]` result. The reference forms the
  whole product, multiplies by `action`, sums over the action axis and adds the unit axis. Over the extended reals both
  are the same sums of the same products in the same order (a matrix product into a zero accumulator and a sum started
  from zero are the plain sums), so the results are equal at every input; finiteness of the inputs is not used.

  The three frames are the generated ones (the reference's is its generated run with the result dropped); the
  idealization rewrote nothing, so `preserves` is trivial; `algebraic` puts the kernel program's run, with its result
  read as `column` of the arguments (Proof/KernelRun.lean), beside the reference's run, whose term is the same
  `column` (Proof/RefValue.lean).
-/
import proofs.«175064_g61091614818686_cont_9to1c4b_579_12_alg».proof.Defs
import proofs.«175064_g61091614818686_cont_9to1c4b_579_12_alg».proof.Proof.Gen.Kernel
import proofs.«175064_g61091614818686_cont_9to1c4b_579_12_alg».proof.Proof.Gen.Kernel.Skeleton
import proofs.«175064_g61091614818686_cont_9to1c4b_579_12_alg».proof.Proof.Gen.Kernel.Launch
import proofs.«175064_g61091614818686_cont_9to1c4b_579_12_alg».proof.Proof.Gen.Kernel.Points
import proofs.«175064_g61091614818686_cont_9to1c4b_579_12_alg».proof.Proof.Gen.Kernel.Frame
import proofs.«175064_g61091614818686_cont_9to1c4b_579_12_alg».proof.Proof.Gen.KernelIdeal
import proofs.«175064_g61091614818686_cont_9to1c4b_579_12_alg».proof.Proof.Gen.KernelIdeal.Skeleton
import proofs.«175064_g61091614818686_cont_9to1c4b_579_12_alg».proof.Proof.Gen.KernelIdeal.Launch
import proofs.«175064_g61091614818686_cont_9to1c4b_579_12_alg».proof.Proof.Gen.KernelIdeal.Points
import proofs.«175064_g61091614818686_cont_9to1c4b_579_12_alg».proof.Proof.Gen.KernelIdeal.Frame
import proofs.«175064_g61091614818686_cont_9to1c4b_579_12_alg».proof.Proof.Gen.ReferenceIdeal
import proofs.«175064_g61091614818686_cont_9to1c4b_579_12_alg».proof.Proof.Gen.Pre_finite_inputs
import proofs.«175064_g61091614818686_cont_9to1c4b_579_12_alg».proof.Proof.Gen.ReferenceIdeal.Run
import proofs.«175064_g61091614818686_cont_9to1c4b_579_12_alg».proof.Proof.Gen.ReferenceIdeal.Read
import proofs.«175064_g61091614818686_cont_9to1c4b_579_12_alg».proof.Proof.KernelRun
import proofs.«175064_g61091614818686_cont_9to1c4b_579_12_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the three arguments both programs end with the column of row values of those
    arguments: the kernel program by its run read through the four blocks and the reshape, the reference by its five
    operations read at an entry. -/
theorem algebraic : Cert.algebraic_KernelIdeal_ReferenceIdeal := by
  intro m ρ m' ρ' _ hagree
  refine ⟨fun c => Cert.ActionValue.column (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
